-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8192 : Shape := ⟨2, ![32768, 8192]⟩
abbrev S256x8192 : Shape := ⟨2, ![256, 8192]⟩
abbrev S_ : Shape := ⟨0, ![]⟩

class Facts : Prop where
  bcast_S_S32768x8192 : S_.BroadcastsInDim S32768x8192 (![] : Fin 0 → Fin S32768x8192.rank)
  reducesTo_S32768x8192_S_d0_1 : S32768x8192.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_

variable [Facts]

def fn {F : FTy → Type} [FloatOps F] (main_arg0 : FVec F S32768x8192 .f32) (main_arg1 : FVec F S256x8192 .f32) : IVec S_ 1 :=
  let main_v0 : FVec F S32768x8192 .f32 := Host.absf main_arg0
  let main_cst : FVec F S_ .f32 := constant S_ .f32 0x7F800000#32
  let main_v1 : FVec F S32768x8192 .f32 := broadcastInDim S32768x8192 ![] bcast_S_S32768x8192 main_cst
  let main_v2 : IVec S32768x8192 1 := cmpf .olt main_v0 main_v1
  let main_c : IVec S_ 1 := constantI S_ 1 1#1
  let main_v3 : IVec S_ 1 := (fun x v => Host.reduce IntOp.andi x v reducesTo_S32768x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  main_v8
-- ==== Kernel.lean ====
abbrev S32768x8192 : Shape := ⟨2, ![32768, 8192]⟩
abbrev S256x8192 : Shape := ⟨2, ![256, 8192]⟩
abbrev S32768x256 : Shape := ⟨2, ![32768, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S32768x8192, .f32⟩
  | .hbm, ⟨1, _⟩ => ⟨S256x8192, .f32⟩
  | .hbm, ⟨2, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S32768x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x8192.size a
  hwx0_0 : ∀ i : grid0.Coords, EltTy.bits .f32 = 32 ∨ (Rect.block (s := S32768x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x8192.size a
  hwx0_1 : ∀ i : grid0.Coords, EltTy.bits .f32 = 32 ∨ (Rect.block (s := S256x8192) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x8192 : Shape := ⟨2, ![32768, 8192]⟩
abbrev S256x8192 : Shape := ⟨2, ![256, 8192]⟩
abbrev S32768x256 : Shape := ⟨2, ![32768, 256]⟩

abbrev nBuf : Space → Nat
  | .hbm => 4
  | .vmem => 0
  | .smem => 0
  | _ => 0

abbrev bufTy : (tb : Table) → Fin (tcTables nBuf tb) → BufTy
  | .hbm, ⟨0, _⟩ => ⟨S32768x8192, .f32⟩
  | .hbm, ⟨1, _⟩ => ⟨S256x8192, .f32⟩
  | .hbm, ⟨2, _⟩ => ⟨S256x8192, .f32⟩
  | .hbm, ⟨3, _⟩ => ⟨S32768x256, .f32⟩
  | _, _ => ⟨S32768x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S32768x8192_S256x8192_S32768x256_1_1_0_0_n_n_wf : DotDims.WF S32768x8192 S256x8192 S32768x256 [1] [1] [0] [0] [] []

variable [Facts₀]

def dot_S32768x8192_S256x8192_S32768x256_1_1_0_0_n_n : DotDims S32768x8192 S256x8192 S32768x256 where
  lhsContracting := [1]
  rhsContracting := [1]
  lhsNonContracting := [0]
  rhsNonContracting := [0]
  lhsBatch := []
  rhsBatch := []
  wf := dot_S32768x8192_S256x8192_S32768x256_1_1_0_0_n_n_wf

class Facts : Prop extends Facts₀ where

variable [Facts]
-- ==== Proof.Pieces.lean ====
/-
  What one grid step leaves behind, as values. The body keeps a [1024, 256] accumulator in scratch memory. At every
  step it replaces the accumulator acc by the step function
      step x w acc = acc + x · tanh(w)ᵀ          (the body's one arithmetic term, over the step's two input blocks);
  at the first step of a row block it first overwrites the accumulator with zeros, so that step leaves
  step x w 0; at the last step of a row block it also copies the new accumulator into the output block.
  Each lemma reads the stores a case of the body was found to make back as that value: a store that covers the whole
  buffer decides its contents, and a load of a buffer after such a store returns the stored value.
-/
import proofs.«118215_j20126216749915_1_alg».proof.Proof.Gen.KernelIdeal.Frame
import Idealize.ShloMosaic.Lib.Pipeline.Value
import Idealize.ShloMosaic.Lib.Tactic

noncomputable section

namespace Cert.KernelIdeal.Steps

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle step of a row block: the accumulator acc becomes step x w acc. -/
theorem scratch_mid (c : Dev nD) (i : grid0.Coords) (a2 : Memref sig .tc .vmem S1024x1024 .f32) (h2 : a2.IsWhole)
    (a3 : Memref sig .tc .vmem S256x1024 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : ¬cond0_1 i)
    (x0 : Vec F S1024x1024 .f32) (x1 : Vec F S256x1024 .f32) (xs0 : Vec F S1024x256 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x1024) hz,
    View.ld_unit_zero (S := S256x1024) hz, View.ld_unit_zero (S := S1024x256) hz]

/-- The first step of a row block: the accumulator is zeroed, then becomes step x w 0. -/
theorem scratch_first (c : Dev nD) (i : grid0.Coords) (a2 : Memref sig .tc .vmem S1024x1024 .f32) (h2 : a2.IsWhole)
    (a3 : Memref sig .tc .vmem S256x1024 .f32) (h3 : a3.IsWhole) (a4 : Memref sig .tc .vmem S1024x256 .f32) (h4 : a4.IsWhole)
    (a5 : Memref sig .tc .vmem S1024x256 .f32) (h5 : a5.IsWhole) (hc0 : cond0_0 i) (hc1 : ¬cond0_1 i)
    (x0 : Vec F S1024x1024 .f32) (x1 : Vec F S256x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x256) hz, View.readCov_unit_zero (S := S1024x256) _ hz]
  simp only [View.readAt_eq_ld, h2.read_unread, h3.read_unread, View.ld_unit_zero (S := S1024x1024) hz,
    View.ld_unit_zero (S := S256x1024) hz]

/-- The last step of a row block leaves the same new accumulator in scratch … -/
theorem scratch_last (c : Dev nD) (i : grid0.Coords) (a2 : Memref sig .tc .vmem S1024x1024 .f32) (h2 : a2.IsWhole)
    (a3 : Memref sig .tc .vmem S256x1024 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x1024 .f32) (x1 : Vec F S256x1024 .f32) (xs0 : Vec F S1024x256 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x1024) hz,
    View.ld_unit_zero (S := S256x1024) hz, View.ld_unit_zero (S := S1024x256) hz]

/-- … and copies it into the output block. -/
theorem out_last (c : Dev nD) (i : grid0.Coords) (a2 : Memref sig .tc .vmem S1024x1024 .f32) (h2 : a2.IsWhole)
    (a3 : Memref sig .tc .vmem S256x1024 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x1024 .f32) (x1 : Vec F S256x1024 .f32) (xs0 : Vec F S1024x256 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x256) _ hz]
  simp only [View.readAt_eq_ld, h2.read_unread, h3.read_unread, h5.read_unread, View.ld_unit_zero (S := S1024x1024) hz,
    View.ld_unit_zero (S := S256x1024) hz, View.ld_unit_zero (S := S1024x256) hz]

end Cert.KernelIdeal.Steps

end
-- ==== Proof.Payload.lean ====
/-
  The body's arithmetic at one entry, over the extended reals. With every float an exact extended real and a change
  of float format the identity, the step function of an x block [1024, 1024], a w block [256, 1024] and an
  accumulator [1024, 256] is, at row p and column q,
      step x w acc [p, q] = acc[p, q] + Σ_{l < 1024} x[p, l] · tanh w[q, l]:
  the matrix unit's product of x with tanh(w) transposed, contracted over the blocks' common second axis and started
  from the zero accumulator, added to acc. The zero block the first step writes is 0 at every entry.
-/
import proofs.«118215_j20126216749915_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Steps

open Idealize.ShloMosaic Idealize.ShloMosaic.ValueIdx
open Cert.KernelIdeal Cert.KernelIdeal.Gen

/-- The zero block is 0 everywhere. -/
theorem zero_apply (j : S1024x256.Idx) : (k0_pay1 (F := Ideal)) j = 0 := by
  unfold k0_pay1
  rw [shapeCast_self]
  exact Ideal.ofBits_zero_f32

/-- The left operand of the block product is read at row p of the output entry and at the contracted column. -/
theorem lhs_row (j : S1024x256.Idx) (k : dot_S1024x1024_S256x1024_S1024x256_1_1_0_0_n_n.contr.Idx) :
    (dot_S1024x1024_S256x1024_S1024x256_1_1_0_0_n_n.lhsIdx j k 0).val = (j 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl

/-- The right operand is read at the row named by the output entry's column, and at the contracted column. -/
theorem rhs_row (j : S1024x256.Idx) (k : dot_S1024x1024_S256x1024_S1024x256_1_1_0_0_n_n.contr.Idx) :
    (dot_S1024x1024_S256x1024_S1024x256_1_1_0_0_n_n.rhsIdx j k 0).val = (j 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl

/-- One step at entry (p, q): the accumulator's entry plus the dot product of row p of the x block with the tanh of
    row q of the w block. -/
theorem step_apply (x0 : Vec Ideal S1024x1024 .f32) (x1 : Vec Ideal S256x1024 .f32) (acc : Vec Ideal S1024x256 .f32)
    (p : Fin 1024) (q : Fin 256) :
    k0_pay2 (F := Ideal) x0 x1 acc (ix2 p q)
      = acc (ix2 p q) + ∑ l : Fin 1024, x0 (ix2 p l) * Ideal.tanh (x1 (ix2 q l)) := by
  unfold k0_pay2
  rw [shapeCast_self]
  show acc (ix2 p q) + FloatOps.matmul (F := Ideal) dot_S1024x1024_S256x1024_S1024x256_1_1_0_0_n_n none
      (truncf (F := Ideal) .bf16 x0 bitsLt_bf16_f32) (truncf (F := Ideal) .bf16 (tanh (F := Ideal) x1) bitsLt_bf16_f32)
      (constant (F := Ideal) S1024x256 .f32 0x00000000#32) (ix2 p q) = _
  rw [Ideal.matmul_constant_zero_apply,
    ← Equiv.sum_comp (contrEquiv1 dot_S1024x1024_S256x1024_S1024x256_1_1_0_0_n_n 1024 rfl rfl).symm]
  refine congrArg (acc (ix2 p q) + ·) (Finset.sum_congr rfl fun l _ => ?_)
  have hl := contrEquiv1_symm_val dot_S1024x1024_S256x1024_S1024x256_1_1_0_0_n_n 1024 rfl rfl l
  have el : dot_S1024x1024_S256x1024_S1024x256_1_1_0_0_n_n.lhsIdx (ix2 p q)
      ((contrEquiv1 dot_S1024x1024_S256x1024_S1024x256_1_1_0_0_n_n 1024 rfl rfl).symm l) = ix2 p l :=
    funext fun a => Fin.ext (by
      match a with
      | ⟨0, _⟩ => exact lhs_row _ _
      | ⟨1, _⟩ => exact (dot_S1024x1024_S256x1024_S1024x256_1_1_0_0_n_n.lhsIdx_val_of_single rfl _ _).trans hl)
  have er : dot_S1024x1024_S256x1024_S1024x256_1_1_0_0_n_n.rhsIdx (ix2 p q)
      ((contrEquiv1 dot_S1024x1024_S256x1024_S1024x256_1_1_0_0_n_n 1024 rfl rfl).symm l) = ix2 q l :=
    funext fun a => Fin.ext (by
      match a with
      | ⟨0, _⟩ => exact rhs_row _ _
      | ⟨1, _⟩ => exact (dot_S1024x1024_S256x1024_S1024x256_1_1_0_0_n_n.rhsIdx_val_of_single rfl _ _).trans hl)
  rw [el, er]
  rfl

end Cert.KernelIdeal.Steps

end
-- ==== Proof.Blocks.lean ====
/-
  Where the three windows sit at grid step n of the 32 × 8 grid, steps counted row-major (n = 8·rb + kb): the x window
  at block (rb, kb) of x, the w window at block (0, kb) of w, the output window at block (rb, 0) of the result, with
  rb = n / 8 and kb = n % 8. So entry (p, l) of the x block is x[rb·1024 + p, kb·1024 + l] and entry (q, l) of the
  w block is w[q, kb·1024 + l]: a block's coordinate is block index × block extent + the coordinate inside the block.
-/
import proofs.«118215_j20126216749915_1_alg».proof.Proof.Gen.KernelIdeal.Frame
import Idealize.ShloMosaic.Lib.ValueIdx
import Idealize.ShloMosaic.Lib.Pipeline.Value

noncomputable section

namespace Cert.KernelIdeal.Steps

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The block index of each window at every step, decided over the 256 steps. -/
theorem block_index : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = t.val / 8 ∧ win0_2.index t (1 : Fin 2) = 0 :=
  (by decide +kernel : ∀ t : Fin grid0.N, _)

/-- Entry (p, l) of the x block at step t is x[t/8·1024 + p, t%8·1024 + l]. -/
theorem xblock_apply (c : Dev nD) (t : Fin cfg0.N) (p l : Fin 1024) (r : Fin 32768) (k : Fin 8192)
    (hr : r.val = t.val / 8 * 1024 + p.val) (hk : k.val = t.val % 8 * 1024 + l.val) :
    (iblk m c 0 t : Vec F S1024x1024 .f32) (ix2 p l) = m ((c : Thread nD τ).loc main_arg0) (ix2 r k) := by
  obtain ⟨e0, e1, -, -, -, -⟩ := block_index t
  unfold iblk
  rw [View.read_apply]
  show V m c main_arg0 _ = m (c.tc.loc main_arg0) _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * l.val = k.val; rw [e1, hk]; omega

/-- Entry (q, l) of the w block at step t is w[q, t%8·1024 + l]. -/
theorem wblock_apply (c : Dev nD) (t : Fin cfg0.N) (q : Fin 256) (l : Fin 1024) (k : Fin 8192)
    (hk : k.val = t.val % 8 * 1024 + l.val) :
    (iblk m c 1 t : Vec F S256x1024 .f32) (ix2 q l) = m ((c : Thread nD τ).loc main_arg1) (ix2 q k) := by
  obtain ⟨-, -, e0, e1, -, -⟩ := block_index t
  unfold iblk
  rw [View.read_apply]
  show V m c main_arg1 _ = m (c.tc.loc main_arg1) _
  congr 1
  funext a
  apply Fin.ext
  match a with
  | ⟨0, _⟩ => show win0_1.index t (0 : Fin 2) * 256 + 1 * q.val = q.val; rw [e0]; omega
  | ⟨1, _⟩ => show win0_1.index t (1 : Fin 2) * 1024 + 1 * l.val = k.val; rw [e1, hk]; omega

end Cert.KernelIdeal.Steps

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Spec.lean ====
/-
  The linear layer with a tanh-squashed weight, as one function of its two argument arrays, and the same function
  read block by block along the contracted axis.

  For x of shape [32768, 8192] and w of shape [256, 8192] over the extended reals,
      y[t, o] = Σ_{i < 8192} x[t, i] · tanh w[o, i].
  The 8192 contracted columns are 8 blocks of 1024 consecutive columns, column kb·1024 + l being entry l of block kb,
  so y[t, o] is the sum over the 8 blocks of the block's own dot product. Only commutativity and associativity of
  addition are used: the regrouping holds for every extended-real entry, finite or not.

  The running sum after the first j + 1 blocks is stated over a natural-number block counter (a block past the eighth
  contributes nothing), which is the form an induction along the blocks uses; after block 7 it is the whole sum.
-/
import Mathlib
import Idealize.ShloMosaic.PureOps.Ideal
import Idealize.ShloMosaic.Lib.ValueIdx
import proofs.«118215_j20126216749915_1_alg».proof.Proof.LibBlockSums

noncomputable section

namespace Cert.TanhLinear

open Idealize.ShloMosaic Idealize.ShloMosaic.ValueIdx

/-- Column l of column block kb: kb·1024 + l. -/
abbrev colAt (kb : Fin 8) (l : Fin 1024) : Fin 8192 := ⟨kb.val * 1024 + l.val, by omega⟩

/-- The layer: y[t, o] = Σ_i x[t, i] · tanh w[o, i]. -/
def linear (x : (⟨2, ![32768, 8192]⟩ : Shape).Idx → EReal) (w : (⟨2, ![256, 8192]⟩ : Shape).Idx → EReal) :
    (⟨2, ![32768, 256]⟩ : Shape).Idx → EReal :=
  fun i => ∑ k : Fin 8192, x (ix2 (i 0) k) * Ideal.tanh (w (ix2 (i 1) k))

/-- The share of column block kb in y[t, o]: the dot product over that block's 1024 columns. -/
def blockDot (x : (⟨2, ![32768, 8192]⟩ : Shape).Idx → EReal) (w : (⟨2, ![256, 8192]⟩ : Shape).Idx → EReal)
    (t : Fin 32768) (o : Fin 256) (kb : Fin 8) : EReal :=
  ∑ l : Fin 1024, x (ix2 t (colAt kb l)) * Ideal.tanh (w (ix2 o (colAt kb l)))

/-- y[t, o] is the sum of its eight blocks' shares. -/
theorem linear_eq_blocks (x : (⟨2, ![32768, 8192]⟩ : Shape).Idx → EReal) (w : (⟨2, ![256, 8192]⟩ : Shape).Idx → EReal)
    (i : (⟨2, ![32768, 256]⟩ : Shape).Idx) :
    linear x w i = ∑ kb : Fin 8, blockDot x w (i 0) (i 1) kb :=
  BlockSums.sum_blocks (by norm_num) colAt (fun _ _ => rfl)
    (fun k : Fin 8192 => x (ix2 (i 0) k) * Ideal.tanh (w (ix2 (i 1) k)))

/-- A block's share with the block counted in ℕ: nothing past the eighth block. -/
def blockDotN (x : (⟨2, ![32768, 8192]⟩ : Shape).Idx → EReal) (w : (⟨2, ![256, 8192]⟩ : Shape).Idx → EReal)
    (t : Fin 32768) (o : Fin 256) (k : ℕ) : EReal :=
  if h : k < 8 then blockDot x w t o ⟨k, h⟩ else 0

/-- The running sum after blocks 0, …, j. -/
def partialDot (x : (⟨2, ![32768, 8192]⟩ : Shape).Idx → EReal) (w : (⟨2, ![256, 8192]⟩ : Shape).Idx → EReal)
    (t : Fin 32768) (o : Fin 256) (j : ℕ) : EReal :=
  ∑ k ∈ Finset.range (j + 1), blockDotN x w t o k

theorem partialDot_zero (x : (⟨2, ![32768, 8192]⟩ : Shape).Idx → EReal) (w : (⟨2, ![256, 8192]⟩ : Shape).Idx → EReal)
    (t : Fin 32768) (o : Fin 256) : partialDot x w t o 0 = blockDotN x w t o 0 := by
  unfold partialDot
  rw [Finset.sum_range_one]

theorem partialDot_succ (x : (⟨2, ![32768, 8192]⟩ : Shape).Idx → EReal) (w : (⟨2, ![256, 8192]⟩ : Shape).Idx → EReal)
    (t : Fin 32768) (o : Fin 256) (j : ℕ) :
    partialDot x w t o (j + 1) = partialDot x w t o j + blockDotN x w t o (j + 1) :=
  Finset.sum_range_succ _ _

/-- After the eighth block the running sum is the layer's entry. -/
theorem partialDot_seven (x : (⟨2, ![32768, 8192]⟩ : Shape).Idx → EReal) (w : (⟨2, ![256, 8192]⟩ : Shape).Idx → EReal)
    (i : (⟨2, ![32768, 256]⟩ : Shape).Idx) : partialDot x w (i 0) (i 1) 7 = linear x w i := by
  rw [linear_eq_blocks]
  unfold partialDot
  rw [Finset.sum_range]
  exact Finset.sum_congr rfl fun k _ => dif_pos k.isLt

end Cert.TanhLinear

end
-- ==== Proof.Accumulate.lean ====
/-
  The accumulator after each grid step. Steps run row-major over the 32 × 8 grid, n = 8·rb + kb. Within row block rb
  the accumulator is zeroed at kb = 0 and gains one column block's share per step, so after step n its entry (p, q)
  is the running sum
      Σ_{k ≤ n % 8} Σ_{l < 1024} x[rb·1024 + p, k·1024 + l] · tanh w[q, k·1024 + l],      rb = n / 8,
  proved by induction on n: a first step starts from 0 (0 + s = s), any other step adds its block's share to what
  the step before left, and n and n + 1 lie in the same row block unless n + 1 starts a new one.
-/
import proofs.«118215_j20126216749915_1_alg».proof.Proof.Pieces
import proofs.«118215_j20126216749915_1_alg».proof.Proof.Payload
import proofs.«118215_j20126216749915_1_alg».proof.Proof.Blocks
import proofs.«118215_j20126216749915_1_alg».proof.Proof.Spec

noncomputable section

namespace Cert.KernelIdeal.Steps

open Idealize.ShloMosaic Idealize.ShloMosaic.TcCoe Idealize.ShloMosaic.ValueIdx Idealize.SL.Sem
open Cert.KernelIdeal Cert.KernelIdeal.Gen Cert.TanhLinear

variable (m : (ℓ : Loc nD τ sig) → Buf (Elt Ideal) ℓ)

/-- Row p of the row block step n works on: (n / 8)·1024 + p. -/
def rowOf (n : ℕ) (hn : n < cfg0.N) (p : Fin 1024) : Fin 32768 :=
  ⟨n / 8 * 1024 + p.val, by
    have hN : n < 256 := lt_of_lt_of_eq hn (show cfg0.N = 256 from N_0)
    have hp := p.isLt
    omega⟩

/-- One step over the arrays: at step t the accumulator's entry (p, q) gains column block t % 8's share of
    y[(t / 8)·1024 + p, q]. -/
theorem step_block (c : Dev nD) (t : Fin cfg0.N) (acc : Vec Ideal S1024x256 .f32) (p : Fin 1024) (q : Fin 256) :
    k0_pay2 (F := Ideal) (iblk m c 0 t) (iblk m c 1 t) acc (ix2 p q)
      = acc (ix2 p q) + blockDotN (m ((c : Thread nD τ).loc main_arg0)) (m ((c : Thread nD τ).loc main_arg1))
          (rowOf t.val t.isLt p) q (t.val % 8) := by
  refine (step_apply (iblk m c 0 t) (iblk m c 1 t) acc p q).trans ?_
  refine congrArg (acc (ix2 p q) + ·) ?_
  have hk : t.val % 8 < 8 := Nat.mod_lt _ (by norm_num)
  unfold blockDotN
  rw [dif_pos hk]
  unfold blockDot
  refine Finset.sum_congr rfl fun l _ => ?_
  rw [xblock_apply m c t p l (rowOf t.val t.isLt p) (colAt ⟨t.val % 8, hk⟩ l) rfl rfl,
    wblock_apply m c t q l (colAt ⟨t.val % 8, hk⟩ l) rfl]

/-- A step that does not start a row block turns the running sum through block n % 8 into the one through block
    (n + 1) % 8 of the same row block. -/
theorem acc_next (c : Dev nD) (n : ℕ) (h : n + 1 < cfg0.N) (h0 : ¬(n + 1) % 8 = 0) (prev : Vec Ideal S1024x256 .f32)
    (hprev : prev = fun j => partialDot (m ((c : Thread nD τ).loc main_arg0)) (m ((c : Thread nD τ).loc main_arg1))
      (rowOf n (Nat.lt_of_succ_lt h) (j 0)) (j 1) (n % 8)) :
    k0_pay2 (F := Ideal) (iblk m c 0 ⟨n + 1, h⟩) (iblk m c 1 ⟨n + 1, h⟩) prev
      = fun j => partialDot (m ((c : Thread nD τ).loc main_arg0)) (m ((c : Thread nD τ).loc main_arg1))
          (rowOf (n + 1) h (j 0)) (j 1) ((n + 1) % 8) := by
  subst hprev
  funext j
  obtain ⟨p, q, rfl⟩ : ∃ (p : Fin 1024) (q : Fin 256), j = ix2 p q := ⟨j 0, j 1, eq_ix2 j⟩
  rw [step_block]
  have e1 : (n + 1) % 8 = n % 8 + 1 := by omega
  have e2 : rowOf n (Nat.lt_of_succ_lt h) p = rowOf (n + 1) h p := Fin.ext (by
    show n / 8 * 1024 + p.val = (n + 1) / 8 * 1024 + p.val
    have : (n + 1) / 8 = n / 8 := by omega
    rw [this])
  show partialDot _ _ (rowOf n _ p) q (n % 8) + blockDotN _ _ (rowOf (n + 1) h p) q ((n + 1) % 8)
    = partialDot _ _ (rowOf (n + 1) h p) q ((n + 1) % 8)
  rw [e1, e2, partialDot_succ]

/-- A step that starts a row block leaves that block's first share. -/
theorem acc_first (c : Dev nD) (n : ℕ) (h : n < cfg0.N) (h0 : n % 8 = 0) :
    k0_pay2 (F := Ideal) (iblk m c 0 ⟨n, h⟩) (iblk m c 1 ⟨n, h⟩) (k0_pay1 (F := Ideal))
      = fun j => partialDot (m ((c : Thread nD τ).loc main_arg0)) (m ((c : Thread nD τ).loc main_arg1))
          (rowOf n h (j 0)) (j 1) (n % 8) := by
  funext j
  obtain ⟨p, q, rfl⟩ : ∃ (p : Fin 1024) (q : Fin 256), j = ix2 p q := ⟨j 0, j 1, eq_ix2 j⟩
  rw [step_block, zero_apply, zero_add]
  show blockDotN _ _ (rowOf n h p) q (n % 8) = partialDot _ _ (rowOf n h p) q (n % 8)
  rw [h0, partialDot_zero]

/-- The accumulator after step n is the running sum through column block n % 8 of row block n / 8. -/
theorem scratch_eq (c : Dev nD) : ∀ (n : ℕ) (h : n < cfg0.N),
    (outsAt0 m c n h).2 = fun j => partialDot (m ((c : Thread nD τ).loc main_arg0)) (m ((c : Thread nD τ).loc main_arg1))
      (rowOf n h (j 0)) (j 1) (n % 8)
  | 0, h => by
    rw [outsAt0_A m c ⟨0, h⟩ rfl (show ¬(0 % 8 = 7) by decide)]
    dsimp only
    rw [scratch_first]
    exact acc_first m c 0 h rfl
  | n + 1, h => by
    have hN : n + 1 < 256 := lt_of_lt_of_eq h (show cfg0.N = 256 from N_0)
    have ih := scratch_eq c n (Nat.lt_of_succ_lt h)
    by_cases h0 : (n + 1) % 8 = 0
    · rw [outsAt0_A m c ⟨n + 1, h⟩ h0 (by dsimp only; omega)]
      dsimp only
      rw [scratch_first]
      exact acc_first m c (n + 1) h h0
    · by_cases h7 : (n + 1) % 8 = 7
      · rw [outsAt0_C m c ⟨n + 1, h⟩ h0 h7]
        dsimp only
        rw [scratch_last]
        exact acc_next m c n h h0 _ ih
      · rw [outsAt0_B m c ⟨n + 1, h⟩ h0 h7]
        dsimp only
        rw [scratch_mid]
        exact acc_next m c n h h0 _ ih

/-- At the last step of a row block the output block is the accumulator just computed. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [out_last, scratch_last]

end Cert.KernelIdeal.Steps

end
-- ==== Proof.Result.lean ====
/-
  From the steps to the result array. Only the last step of each row block (n % 8 = 7) writes the output block back,
  to block (n / 8, 0) of the result, and what it writes is the accumulator after that step: the running sum through
  all eight column blocks, which is the layer's entry y[(n / 8)·1024 + p, q]. Row t of the result lies in row block
  t / 1024, whose last step is 8·(t / 1024) + 7, so the 32 written blocks cover the whole [32768, 256] array and it
  ends holding the layer of the two argument arrays.
-/
import proofs.«118215_j20126216749915_1_alg».proof.Proof.Accumulate
import proofs.«118215_j20126216749915_1_alg».proof.Proof.Gen.KernelIdeal.Value

noncomputable section

namespace Cert.KernelIdeal.Steps

open Idealize.ShloMosaic Idealize.ShloMosaic.TcCoe Idealize.ShloMosaic.ValueIdx Idealize.SL.Sem
open Idealize.ShloMosaic.Pipeline (Dat)
open Cert.KernelIdeal Cert.KernelIdeal.Gen Cert.TanhLinear

variable (m : (ℓ : Loc nD τ sig) → Buf (Elt Ideal) ℓ) (ρ : Dev nD → PrngReg)

/-- What a flushing step writes back is its block of the layer. -/
theorem flushed_eq (c : Dev nD) (t : Fin cfg0.N) (hf : (cfg0.win 2).flush t = true) :
    (dats m 0 c).flushed 2 t = ((cfg0.win 2).blk t).view.read (Elt Ideal)
      (linear (m ((c : Thread nD τ).loc main_arg0)) (m ((c : Thread nD τ).loc main_arg1))) := by
  have h7 : t.val % 8 = 7 := (flush0_2 t).mp hf
  obtain ⟨-, -, -, -, e0, e1⟩ := block_index t
  rw [Cert.KernelIdeal.Value.flushed2, out_eq_scratch m c t h7, scratch_eq]
  funext j
  show partialDot _ _ (rowOf t.val t.isLt (j 0)) (j 1) (t.val % 8) = linear _ _ (((cfg0.win 2).blk t).view.emb j)
  rw [h7]
  refine (partialDot_seven _ _ (ix2 (rowOf t.val t.isLt (j 0)) (j 1))).trans ?_
  congr 1
  funext a
  apply Fin.ext
  match a with
  | ⟨0, _⟩ => show t.val / 8 * 1024 + (j 0).val = win0_2.index t (0 : Fin 2) * 1024 + 1 * (j 0).val; rw [e0]; omega
  | ⟨1, _⟩ => show (j 1).val = win0_2.index t (1 : Fin 2) * 256 + 1 * (j 1).val; rw [e1]; omega

/-- An entry of the result is in step t's block iff each coordinate is in the block's range on its axis. -/
theorem mem_blk (t : Fin cfg0.N) (i : S32768x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- Every entry of the result is written by the last step of its row block. -/
theorem cover (i : S32768x256.Idx) :
    ∃ t : Fin cfg0.N, (cfg0.win 2).flush t = true ∧ i ∈ ((cfg0.win 2).blk t).view.set := by
  have hi0 : (i 0).val < 32768 := (i 0).isLt
  have hi1 : (i 1).val < 256 := (i 1).isLt
  have hN : cfg0.N = 256 := N_0
  refine ⟨⟨8 * ((i 0).val / 1024) + 7, by rw [hN]; omega⟩, (flush0_2 _).mpr (by dsimp only; omega), ?_⟩
  rw [mem_blk]
  obtain ⟨-, -, -, -, e0, e1⟩ := block_index ⟨8 * ((i 0).val / 1024) + 7, by rw [hN]; omega⟩
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 256 ≤ (i 1).val ∧ (i 1).val < win0_2.index _ (1 : Fin 2) * 256 + 256
    rw [e1]; omega

/-- The result array after the run is the layer of the two arguments. -/
theorem final (c : Dev nD) : (dats m 0 c).arrAt 2 cfg0.N
    = linear (m ((c : Thread nD τ).loc main_arg0)) (m ((c : Thread nD τ).loc main_arg1)) :=
  (dats m 0 c).arrAt_eq_of_cover 2 _ (flushed_eq m c) cover

/-- The kernel's run: it terminates with the result at the layer of the arguments and the arguments unchanged. -/
theorem run : θ_run defs (onTc (τ := τ) (main (F := Ideal))) ⟨m, fun _ => 0, ρ⟩ fun r => ∀ c : Dev nD,
      r.2.mem ((c : Thread nD τ).loc main_v0)
        = linear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Steps

end
-- ==== Proof.RefLinear.lean ====
/-
  The reference computes the layer directly: it takes tanh of the whole weight array and contracts x with it over
  the second axis of both. Read at an output entry (t, o) over the extended reals that is
      Σ_{i < 8192} x[t, i] · tanh w[o, i],
  the specification's function, term by term.
-/
import proofs.«118215_j20126216749915_1_alg».proof.Proof.Gen.ReferenceIdeal.Read
import proofs.«118215_j20126216749915_1_alg».proof.Proof.Spec

noncomputable section

namespace Cert.ReferenceIdeal.RefValue

open Idealize.ShloMosaic Idealize.ShloMosaic.ValueIdx
open Cert.ReferenceIdeal Cert.ReferenceIdeal.Read

/-- The reference's result, as a function of its two arguments, is the layer. -/
theorem result_eq (x : (⟨S32768x8192, .f32⟩ : BufTy).Contents (Elt Ideal)) (w : (⟨S256x8192, .f32⟩ : BufTy).Contents (Elt Ideal)) :
    val_main_v1 (F := Ideal) x w = Cert.TanhLinear.linear x w := by
  funext i
  rw [val_main_v1_apply]
  unfold Cert.TanhLinear.linear
  refine Finset.sum_congr rfl fun k _ => ?_
  rw [val_main_v0_apply]
  have el : lidx_main_v1 i k = ix2 (n0 := 32768) (n1 := 8192) (i 0) k :=
    funext fun a => Fin.ext (by match a with | ⟨0, _⟩ => rfl | ⟨1, _⟩ => rfl)
  have er : ridx_main_v1 i k = ix2 (n0 := 256) (n1 := 8192) (i 1) k :=
    funext fun a => Fin.ext (by match a with | ⟨0, _⟩ => rfl | ⟨1, _⟩ => rfl)
  rw [el, er]
  rfl

end Cert.ReferenceIdeal.RefValue

end
-- ==== Proof.lean ====
/-
  A linear layer whose weight is squashed by tanh: y[t, o] = Σ_{i < 8192} x[t, i] · tanh w[o, i], for x of shape
  [32768, 8192] and w of shape [256, 8192].

  The kernel walks a 32 × 8 grid of (row block, column block) steps with 1024 × 1024 blocks of x and 256 × 1024 blocks
  of w. It keeps a [1024, 256] accumulator: zeroed at the first column block of a row block, increased at every step
  by the block product x_blk · tanh(w_blk)ᵀ, and written to the result at the last column block. The reference takes
  tanh of the whole weight and contracts once over all 8192 columns.

  Over the extended reals every float operation is exact and a change of float format is the identity, so both
  programs compute sums of the same 8192 products; they differ only in the grouping — eight partial sums of 1024
  products added in order to a zero, against one sum. Addition of extended reals is commutative and associative with
  0 neutral, so the two agree for all inputs: the finiteness of the inputs is never used.

  The modules: Spec (the layer as one function, and its regrouping into column blocks), Pieces (what a grid step
  leaves in the accumulator and the output block), Payload (the step's arithmetic at one entry), Blocks (where the
  windows sit at each step), Accumulate (the accumulator after each step, by induction), Result (the result array
  after the run), RefLinear (the reference's value). The kernels' termination and the unchanged arguments are the
  generated frame theorems; no operation was rewritten in passing to the exact semantics, so that conjunct is True.
-/
import proofs.«118215_j20126216749915_1_alg».proof.Defs
import proofs.«118215_j20126216749915_1_alg».proof.Proof.Gen.Kernel
import proofs.«118215_j20126216749915_1_alg».proof.Proof.Gen.Kernel.Frame
import proofs.«118215_j20126216749915_1_alg».proof.Proof.Gen.KernelIdeal
import proofs.«118215_j20126216749915_1_alg».proof.Proof.Gen.KernelIdeal.Frame
import proofs.«118215_j20126216749915_1_alg».proof.Proof.Gen.KernelIdeal.Value
import proofs.«118215_j20126216749915_1_alg».proof.Proof.Gen.ReferenceIdeal
import proofs.«118215_j20126216749915_1_alg».proof.Proof.Gen.ReferenceIdeal.Run
import proofs.«118215_j20126216749915_1_alg».proof.Proof.Gen.ReferenceIdeal.Read
import proofs.«118215_j20126216749915_1_alg».proof.Proof.Gen.Pre_finite_inputs
import proofs.«118215_j20126216749915_1_alg».proof.Proof.Result
import proofs.«118215_j20126216749915_1_alg».proof.Proof.RefLinear
import Idealize.ShloMosaic.Adequacy
import Idealize.ShloMosaic.Init

noncomputable section

namespace Cert.Proof

open Idealize.ShloMosaic Idealize.SL.Sem

/-- The kernel as printed terminates, faults nowhere and leaves its arguments unchanged. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- So does the reference: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs end with the layer of the arguments: the kernel by accumulating the eight column blocks' shares,
    the reference directly; from arguments that agree the results are equal, entry by entry. -/
theorem algebraic : Cert.algebraic_KernelIdeal_ReferenceIdeal := by
  intro m ρ m' ρ' _ hagree
  refine ⟨fun c => Cert.TanhLinear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Steps.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
